-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : IVec S4096x4096 32) (main_arg2 : FVec F S4096x32 .f32) (main_arg3 : FVec F S4096x32 .f32) (main_arg4 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S1024x128 : Shape := ⟨2, ![1024, 128]⟩
abbrev S2048x128 : Shape := ⟨2, ![2048, 128]⟩
abbrev S2048x32 : Shape := ⟨2, ![2048, 32]⟩
abbrev S1x2048 : Shape := ⟨2, ![1, 2048]⟩
abbrev S1024x2048 : Shape := ⟨2, ![1024, 2048]⟩
abbrev S1x32 : Shape := ⟨2, ![1, 32]⟩
abbrev S2048 : Shape := ⟨1, ![2048]⟩
abbrev S2048x1 : Shape := ⟨2, ![2048, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S1x4096, .f32⟩
  | .hbm, ⟨6, _⟩ => ⟨S2048x4096, .f32⟩
  | .local _ .vmem, ⟨0, _⟩ => ⟨S1024x128, .f32⟩
  | .local _ .vmem, ⟨1, _⟩ => ⟨S1024x128, .f32⟩
  | .local _ .vmem, ⟨2, _⟩ => ⟨S2048x128, .i32⟩
  | .local _ .vmem, ⟨3, _⟩ => ⟨S2048x128, .i32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x32_S2048x32_0_0 : ∀ a, (![0, 0] : Fin 2 → Nat) a + S2048x32.size a ≤ S2048x32.size a
  h_S2048x32 : 0 < S2048x32.numel
  iota_S1x32_d1_w32 : S1x32.Iotas .tc 32 [1]
  natLt_1_32 : 1 < 32
  broadcasts_S1x32_S2048x32 : S1x32.Broadcasts S2048x32
  reduces_S2048x32_S2048 : S2048x32.Reduces [1] S2048
  shapeCasts_S2048_S2048x1 : S2048.ShapeCasts S2048x1
  shapeCasts_S2048x1_S2048x1 : S2048x1.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x4096.size a
  hwx0_0 : ∀ i : grid0.Coords, EltTy.bits .f32 = 32 ∨ (Rect.block (s := S2048x4096) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x4096.size a
  hwx0_1 : ∀ i : grid0.Coords, EltTy.bits .i32 = 32 ∨ (Rect.block (s := S4096x4096) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S4096x32.size a
  hwx0_2 : ∀ i : grid0.Coords, EltTy.bits .f32 = 32 ∨ (Rect.block (s := S4096x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S4096x32.size a
  hwx0_3 : ∀ i : grid0.Coords, EltTy.bits .f32 = 32 ∨ (Rect.block (s := S4096x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S2048x4096.size a
  hwx0_5 : ∀ i : grid0.Coords, EltTy.bits .f32 = 32 ∨ (Rect.block (s := S2048x4096) S1024x2048.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096x32x128, .f32⟩
  | .hbm, ⟨6, _⟩ => ⟨S4096x4096, .f32⟩
  | .hbm, ⟨7, _⟩ => ⟨S4096x32x128, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.LibRowsTimesRows.lean ====
/-
  The affine layer `x · Wᵀ + b` over the extended reals, for arrays of any sizes.

  `h` is an `[a, K]` array (one row per sample), `W` a `[b, K]` array (one row of weights per output feature) and
  `β` gives one bias per output feature. `linear h W β` is the `[a, b]` array whose entry `(r, q)` is
  `(∑ k, h[r, k] · W[q, k]) + β q`: row `r` of `h` against row `q` of `W`. Both operands are contracted along
  their SECOND axis, so no transpose is ever formed.

  Two spellings of this array are read here, entry by entry, as `linear`:
  * the device's — both operands narrowed to a smaller float format (the identity on an extended real), multiplied
    into an all-zero accumulator, plus a `[1, b]` bias row broadcast down the `a` rows (`device_apply`);
  * the host's — a `dot_general` of the two operands, plus a `[b]` bias vector first given a unit leading axis and
    then broadcast down the `a` rows (`host_apply`).
  What the dimension numbers of the product have to say is collected in `ContractsRows`: one contracted axis, of
  extent `K`; the left operand read at (row of the result, `k`) and the right operand at (column of the result, `k`).
  No entry has to be finite: only the definitions of the operations on the extended reals are used, and a finite sum
  re-indexed along a bijection.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowsTimesRows

open Idealize.ShloMosaic Idealize.ShloMosaic.ValueIdx
open scoped BigOperators

variable {a K b : ℕ}

/-! ## The layer as one function -/

/-- Entry `(p, q)` of the layer: row `p` of `h` against row `q` of `W`, plus the bias of output feature `q`. -/
def linearAt (h : (⟨2, ![a, K]⟩ : Shape).Idx → EReal) (W : (⟨2, ![b, K]⟩ : Shape).Idx → EReal) (β : Fin b → EReal)
    (p : Fin a) (q : Fin b) : EReal :=
  (∑ k : Fin K, h (ix2 p k) * W (ix2 q k)) + β q

/-- The whole `[a, b]` array `h · Wᵀ + β`. -/
def linear (h : (⟨2, ![a, K]⟩ : Shape).Idx → EReal) (W : (⟨2, ![b, K]⟩ : Shape).Idx → EReal) (β : Fin b → EReal) :
    (⟨2, ![a, b]⟩ : Shape).Idx → EReal :=
  fun i => linearAt h W β (i 0) (i 1)

theorem linear_apply (h : (⟨2, ![a, K]⟩ : Shape).Idx → EReal) (W : (⟨2, ![b, K]⟩ : Shape).Idx → EReal) (β : Fin b → EReal)
    (p : Fin a) (q : Fin b) : linear h W β (ix2 p q) = linearAt h W β p q := rfl

/-! ## The product's dimension numbers -/

/-- The dimension numbers of an `[a, K] × [b, K] → [a, b]` product that contracts the second axis of both operands:
    the contraction ranges over ONE axis, of extent `K`; at entry `j` of the result and contraction index `k` the left
    operand is read at `(j 0, k)` and the right operand at `(j 1, k)`. -/
structure ContractsRows (d : DotDims ⟨2, ![a, K]⟩ ⟨2, ![b, K]⟩ ⟨2, ![a, b]⟩) : Prop where
  rank : d.contr.rank = 1
  size : d.contr.size ⟨0, by omega⟩ = K
  lhs_row : ∀ (j : (⟨2, ![a, b]⟩ : Shape).Idx) (k : d.contr.Idx), (d.lhsIdx j k 0).val = (j 0).val
  lhs_col : ∀ (j : (⟨2, ![a, b]⟩ : Shape).Idx) (k : d.contr.Idx), (d.lhsIdx j k 1).val = (k ⟨0, by omega⟩).val
  rhs_row : ∀ (j : (⟨2, ![a, b]⟩ : Shape).Idx) (k : d.contr.Idx), (d.rhsIdx j k 0).val = (j 1).val
  rhs_col : ∀ (j : (⟨2, ![a, b]⟩ : Shape).Idx) (k : d.contr.Idx), (d.rhsIdx j k 1).val = (k ⟨0, by omega⟩).val

variable {d : DotDims ⟨2, ![a, K]⟩ ⟨2, ![b, K]⟩ ⟨2, ![a, b]⟩}

/-- The sum over the contraction's index set, re-indexed by the contracted position `k < K`: at entry `(p, q)` the
    products are `lhs[p, k] · rhs[q, k]`. -/
theorem ContractsRows.sum_eq (H : ContractsRows d) (lhs : (⟨2, ![a, K]⟩ : Shape).Idx → EReal)
    (rhs : (⟨2, ![b, K]⟩ : Shape).Idx → EReal) (p : Fin a) (q : Fin b) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun x => Fin.ext (by
    match x with
    | ⟨0, _⟩ => exact H.lhs_row _ _
    | ⟨1, _⟩ => exact (H.lhs_col _ _).trans hk)
  have er : d.rhsIdx (ix2 p q) ((contrEquiv1 d K H.rank H.size).symm k) = ix2 q k := funext fun x => Fin.ext (by
    match x with
    | ⟨0, _⟩ => exact H.rhs_row _ _
    | ⟨1, _⟩ => exact (H.rhs_col _ _).trans hk)
  rw [el, er]

/-! ## The device's spelling -/

/-- Both operands narrowed, multiplied into a zero accumulator, plus a `[1, b]` bias row broadcast down the rows:
    entry `(p, q)` is the layer's, the bias of feature `q` being the row's entry `(0, q)`. Narrowing a float format
    does nothing to an extended real, and the zero accumulator adds nothing. -/
theorem device_apply {φx φw ψx ψw : FTy} (H : ContractsRows d) (prec : Option ContractPrecision)
    (x : FVec Ideal ⟨2, ![a, K]⟩ φx) (w : FVec Ideal ⟨2, ![b, K]⟩ φw) (row : FVec Ideal ⟨2, ![1, b]⟩ .f32)
    (hx : ψx.bits < φx.bits) (hw : ψw.bits < φw.bits)
    (hb : (⟨2, ![1, b]⟩ : Shape).Broadcasts ⟨2, ![a, b]⟩) (p : Fin a) (q : Fin b) :
    addf (matmul d prec (truncf ψx x hx) (truncf ψw w hw) (constant (F := Ideal) ⟨2, ![a, b]⟩ .f32 0x00000000#32))
        (broadcastTo ⟨2, ![a, b]⟩ row hb) (ix2 p q)
      = linearAt x w (fun c => row (ix2 (0 : Fin 1) c)) p q := by
  rw [addf_apply, broadcastTo_1b_ab_apply]
  show FloatOps.matmul d prec (truncf ψx x hx) (truncf ψw w hw) (constant (F := Ideal) ⟨2, ![a, b]⟩ .f32 0x00000000#32) (ix2 p q) + _ = _
  rw [Ideal.matmul_constant_zero_apply, H.sum_eq]
  rfl

/-! ## The host's spelling -/

/-- A `[b]` vector given a unit leading axis and then broadcast down `a` rows reads, at `(p, q)`, the vector at `q`. -/
theorem biasRows_apply {α : Type} (vec : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 vec) (ix2 p q) = vec (ix1 q) := by
  rw [broadcastInDim_apply ![0, 1] h2 _ (ix2 p q) (ix2 (0 : Fin 1) q) (fun x => by
    match x with
    | ⟨0, _⟩ => rfl
    | ⟨1, _⟩ =>
      show q.val = if b = 1 then 0 else q.val
      split
      · have := q.isLt; omega
      · rfl)]
  exact broadcastInDim_apply ![1] h1 vec (ix2 (0 : Fin 1) q) (ix1 q) (fun x => by
    match x with
    | ⟨0, _⟩ =>
      show q.val = if b = 1 then 0 else q.val
      split
      · have := q.isLt; omega
      · rfl)

/-- The host's product plus the bias vector broadcast down the rows: entry `(p, q)` is the layer's, the bias of
    feature `q` being the vector's entry `q`. -/
theorem host_apply {φx φw : FTy} (H : ContractsRows d) (prec : Option ContractPrecision)
    (x : FVec Ideal ⟨2, ![a, K]⟩ φx) (w : FVec Ideal ⟨2, ![b, K]⟩ φw) (vec : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral d prec x w) (broadcastInDim ⟨2, ![a, b]⟩ ![0, 1] h2 (broadcastInDim ⟨2, ![1, b]⟩ ![1] h1 vec)) (ix2 p q)
      = linearAt x w (fun c => vec (ix1 c)) p q := by
  rw [addf_apply, biasRows_apply]
  show FloatOps.dotGeneral d prec .single x w (ix2 p q) + _ = _
  rw [Ideal.dotGeneral_apply, H.sum_eq]
  rfl

end Cert.RowsTimesRows

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BodyValue.lean ====
/-
  The arithmetic of one grid point of the kernel, read entry by entry over the extended reals.

  At the point with reduction coordinate `k` (one of 32 quantization groups) the body
  * forms a one-hot row `e` of length 32 (`e g = 1` when `g = k`, else `0`);
  * turns the `[2048, 32]` blocks of scales and of zero points into columns by summing each row against `e`:
    `∑ g, v[n, g] · e g = v[n, k]`, because every other term is a product with `0` and the remaining one a product
    with `1` (true of every extended real, infinite ones included);
  * dequantizes the `[2048, 128]` block of integer weights: `w[n, j] = (q[n, j] − zero[n, k]) · scale[n, k]`;
  * multiplies the `[1024, 128]` block of activations with that tile, both contracted along their second axis, and
    adds the product to what the accumulator held: `acc[p, n] + ∑ j, a[p, j] · w[n, j]`.
  A second, short payload adds the bias row to the accumulator: `acc[p, n] + bias[0, n]`.
  Changing a float's format is the identity on an extended real, so the two narrowings before the product vanish.
-/
import proofs.«155932_j2018634629251_1_alg».proof.Proof.Gen.KernelIdeal.Skeleton
import proofs.«155932_j2018634629251_1_alg».proof.Proof.LibRowsTimesRows
import proofs.«155932_j2018634629251_1_alg».proof.Proof.LibColumnForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx
open scoped BigOperators

/-! ## The one-hot row -/

/-- The row `e` of length 32 the body builds from the point's reduction coordinate. -/
def onehot (i : grid0.Coords) : FVec Ideal S1x32 .f32 :=
  sitofp .f32 (extui 32 (cmpi .eq (iota .tc S1x32 32 [1] iota_S1x32_d1_w32)
    (broadcast S1x32 (Scalar.addi (Scalar.muli (BitVec.ofNat 32 (i 2).val) 1#32) 0#32))) natLt_1_32)

/-- `e g` is `1` at the point's own group and `0` at every other. -/
theorem onehot_apply (i : grid0.Coords) (kb : Fin 32) (hkb : (i 2).val = kb.val) (g : Fin 32) :
    onehot i (ix2 (0 : Fin 1) g) = if g = kb then 1 else 0 := by
  unfold onehot
  rw [sitofp_apply, extui_apply]
  show FloatOps.sitofp .f32 ((IntOp.cmpi .eq (iota .tc S1x32 32 [1] iota_S1x32_d1_w32 (ix2 (0 : Fin 1) g))
    (Scalar.addi (Scalar.muli (BitVec.ofNat 32 (i 2).val) 1#32) 0#32)).setWidth 32) = _
  rw [iota_single_apply, hkb]
  have hw : Scalar.addi (Scalar.muli (BitVec.ofNat 32 kb.val) 1#32) 0#32 = BitVec.ofNat 32 kb.val := by
    simp [Scalar.addi, Scalar.muli, IntOp.addi, IntOp.muli]
  rw [hw]
  show (((((IntOp.cmpi .eq (BitVec.ofNat 32 g.val) (BitVec.ofNat 32 kb.val)).setWidth 32).toInt : ℝ)) : EReal) = _
  have hg := g.isLt
  have hk := kb.isLt
  by_cases h : g = kb
  · subst h
    rw [if_pos rfl]
    simp [IntOp.cmpi]
  · rw [if_neg h]
    have hne : BitVec.ofNat 32 g.val ≠ BitVec.ofNat 32 kb.val := by
      intro e
      apply h
      apply Fin.ext
      have := congrArg BitVec.toNat e
      simp only [BitVec.toNat_ofNat] at this
      omega
    have hb : (BitVec.ofNat 32 g.val == BitVec.ofNat 32 kb.val) = false := by simpa using hne
    simp [IntOp.cmpi, hb]

/-! ## A block's column at the point's group -/

/-- A `[2048, 32]` block turned into a `[2048, 128]` one: each row summed against the one-hot row, the sums kept
    as a column, the column repeated along the 128 lanes. -/
def column (i : grid0.Coords) (v : Vec Ideal S2048x32 .f32) : FVec Ideal S2048x128 .f32 :=
  broadcastTo S2048x128 (shapeCast S2048x1 (shapeCast S2048x1 (multiReduction .add [1] S2048
    (mulf v (broadcastTo S2048x32 (onehot i) broadcasts_S1x32_S2048x32)) 0x00000000#32 reduces_S2048x32_S2048 (.inl rfl) rfl)
    shapeCasts_S2048_S2048x1) shapeCasts_S2048x1_S2048x1) broadcasts_S2048x1_S2048x128

/-- The source index of a row sum: row `n`, lane `g`. -/
theorem lift_eq (n : Fin 2048) (g : Fin 32) :
    reduces_S2048x32_S2048.lift (ix1 n) g = ix2 n g := by
  funext c
  apply Fin.ext
  match c with
  | ⟨0, _⟩ => rfl
  | ⟨1, _⟩ => rfl

/-- Entry `(n, j)` of the column block is the block's entry at row `n` and the point's group, whatever `j`. -/
theorem column_apply (i : grid0.Coords) (kb : Fin 32) (hkb : (i 2).val = kb.val) (v : Vec Ideal S2048x32 .f32)
    (n : Fin 2048) (j : Fin 128) : column i v (ix2 n j) = v (ix2 n kb) := by
  unfold column
  rw [Cert.ColumnForms.broadcastTo_a1_ab_apply, shapeCast_self, Cert.ColumnForms.shapeCast_a_a1_apply]
  show Ideal.reduceAdd reduces_S2048x32_S2048 (mulf v (broadcastTo S2048x32 (onehot i) broadcasts_S1x32_S2048x32)) (ix1 n) = _
  refine (Ideal.reduceAdd_single reduces_S2048x32_S2048 _ (ix1 n)).trans ?_
  show ∑ g : Fin 32, mulf v (broadcastTo S2048x32 (onehot i) broadcasts_S1x32_S2048x32) (reduces_S2048x32_S2048.lift (ix1 n) g) = _
  have hterm : ∀ g : Fin 32, mulf v (broadcastTo S2048x32 (onehot i) broadcasts_S1x32_S2048x32) (reduces_S2048x32_S2048.lift (ix1 n) g)
      = if g = kb then v (ix2 n kb) else 0 := fun g => by
    refine (congrArg (mulf v (broadcastTo S2048x32 (onehot i) broadcasts_S1x32_S2048x32)) (lift_eq n g)).trans ?_
    rw [mulf_apply, broadcastTo_1b_ab_apply, onehot_apply i kb hkb g]
    by_cases h : g = kb
    · subst h; rw [if_pos rfl, if_pos rfl, mul_one]
    · rw [if_neg h, if_neg h, mul_zero]
  rw [Finset.sum_congr rfl fun g _ => hterm g, Finset.sum_ite_eq' Finset.univ kb, if_pos (Finset.mem_univ _)]

/-! ## The dequantized tile -/

/-- The `[2048, 128]` tile of weights the body multiplies with: the integers minus the zero-point column, times the
    scale column. -/
def tile (i : grid0.Coords) (sc zp : Vec Ideal S2048x32 .f32) (qw : Vec Ideal S2048x128 .i32) : FVec Ideal S2048x128 .f32 :=
  mulf (subf (sitofp .f32 qw) (column i zp)) (column i sc)

theorem tile_apply (i : grid0.Coords) (kb : Fin 32) (hkb : (i 2).val = kb.val) (sc zp : Vec Ideal S2048x32 .f32)
    (qw : Vec Ideal S2048x128 .i32) (n : Fin 2048) (j : Fin 128) :
    tile i sc zp qw (ix2 n j) = ((((qw (ix2 n j)).toInt : ℝ) : EReal) - zp (ix2 n kb)) * sc (ix2 n kb) := by
  unfold tile
  rw [mulf_apply, subf_apply, column_apply i kb hkb, column_apply i kb hkb]
  rfl

/-! ## The two payloads -/

/-- The accumulating payload is the accumulator plus the product of the narrowed activations and the narrowed tile. -/
theorem accumulate_eq (i : grid0.Coords) (sc zp : Vec Ideal S2048x32 .f32) (qw : Vec Ideal S2048x128 .i32)
    (act : Vec Ideal S1024x128 .f32) (acc : Vec Ideal S1024x2048 .f32) :
    k0_pay3 (F := Ideal) i sc zp qw act acc
      = shapeCast S1024x2048 (addf acc (matmul dot_S1024x128_S2048x128_S1024x2048_1_1_0_0_n_n none
          (truncf .bf16 act bitsLt_bf16_f32) (truncf .bf16 (tile i sc zp qw) bitsLt_bf16_f32)
          (constant (F := Ideal) S1024x2048 .f32 0x00000000#32))) shapeCasts_S1024x2048_S1024x2048 := rfl

/-- What the product's dimension numbers say: both operands contracted along their second axis, of extent 128. -/
theorem contracts : Cert.RowsTimesRows.ContractsRows (a := 1024) (K := 128) (b := 2048) dot_S1024x128_S2048x128_S1024x2048_1_1_0_0_n_n where
  rank := rfl
  size := rfl
  lhs_row := fun j k => by
    unfold DotDims.lhsIdx
    rw [dif_neg (show ¬(0 : Fin S1024x128.rank) ∈ dot_S1024x128_S2048x128_S1024x2048_1_1_0_0_n_n.lhsBatch by decide),
      dif_pos (show (0 : Fin S1024x128.rank) ∈ dot_S1024x128_S2048x128_S1024x2048_1_1_0_0_n_n.lhsNonContracting by decide)]
    rfl
  lhs_col := fun j k => dot_S1024x128_S2048x128_S1024x2048_1_1_0_0_n_n.lhsIdx_val_of_single rfl j k
  rhs_row := fun j k => by
    unfold DotDims.rhsIdx
    rw [dif_neg (show ¬(0 : Fin S2048x128.rank) ∈ dot_S1024x128_S2048x128_S1024x2048_1_1_0_0_n_n.rhsBatch by decide),
      dif_pos (show (0 : Fin S2048x128.rank) ∈ dot_S1024x128_S2048x128_S1024x2048_1_1_0_0_n_n.rhsNonContracting by decide)]
    rfl
  rhs_col := fun j k => dot_S1024x128_S2048x128_S1024x2048_1_1_0_0_n_n.rhsIdx_val_of_single rfl j k

/-- Entry `(p, n)` of the accumulating payload: what the accumulator held there plus the 128 products of this
    point's group. -/
theorem accumulate_apply (i : grid0.Coords) (kb : Fin 32) (hkb : (i 2).val = kb.val) (sc zp : Vec Ideal S2048x32 .f32)
    (qw : Vec Ideal S2048x128 .i32) (act : Vec Ideal S1024x128 .f32) (acc : Vec Ideal S1024x2048 .f32)
    (p : Fin 1024) (n : Fin 2048) :
    k0_pay3 (F := Ideal) i sc zp qw act acc (ix2 p n)
      = acc (ix2 p n) + ∑ j : Fin 128, act (ix2 p j)
          * (((((qw (ix2 n j)).toInt : ℝ) : EReal) - zp (ix2 n kb)) * sc (ix2 n kb)) := by
  rw [accumulate_eq, shapeCast_self, addf_apply]
  show acc (ix2 p n) + FloatOps.matmul dot_S1024x128_S2048x128_S1024x2048_1_1_0_0_n_n none
    (truncf .bf16 act bitsLt_bf16_f32) (truncf .bf16 (tile i sc zp qw) bitsLt_bf16_f32)
    (constant (F := Ideal) S1024x2048 .f32 0x00000000#32) (ix2 p n) = _
  rw [Ideal.matmul_constant_zero_apply, contracts.sum_eq]
  refine congrArg (acc (ix2 p n) + ·) (Finset.sum_congr rfl fun j _ => ?_)
  rw [truncf_apply, truncf_apply, tile_apply i kb hkb]

/-- Entry `(p, n)` of the output payload: the accumulator there plus the bias of column `n`. -/
theorem output_apply (acc : FVec Ideal S1024x2048 .f32) (brow : FVec Ideal S1x2048 .f32) (p : Fin 1024) (n : Fin 2048) :
    k0_pay1 (F := Ideal) acc brow (ix2 p n) = acc (ix2 p n) + brow (ix2 (0 : Fin 1) n) := by
  unfold k0_pay1
  show addf acc (broadcastTo S1024x2048 (shapeCast S1x2048 brow shapeCasts_S1x2048_S1x2048) broadcasts_S1x2048_S1024x2048) (ix2 p n) = _
  rw [addf_apply, broadcastTo_1b_ab_apply, shapeCast_self]

/-- The reset payload is the all-zero block. -/
theorem reset_apply (y : S1024x2048.Idx) : k0_pay2 (F := Ideal) y = 0 := by
  unfold k0_pay2
  show shapeCast S1024x2048 (broadcast S1024x2048 (Scalar.ofBits (F := Ideal) .f32 0x00000000#32)) shapeCasts_S1024x2048_S1024x2048 y = 0
  rw [shapeCast_self, broadcast_apply]
  exact Ideal.ofBits_zero_f32

end Cert.KernelIdeal.BodyValue

end
-- ==== Proof.CaseValue.lean ====
/-
  What one grid point leaves behind, case by case, as the body's payloads of what the point was handed.

  The body stores twice: the accumulator (a scratch buffer kept from one grid point to the next) and the output
  block. At the FIRST point of a reduction (reduction coordinate 0) it first overwrites the accumulator with zeros,
  so what it then reads back is the zero block; at every other point it reads what the point before left. In both
  cases the new accumulator is the accumulating payload of (scales, zero points, integer weights, activations, old
  accumulator), and the output block is the output payload of (new accumulator, bias row): the output block is
  read from the accumulator AFTER the accumulator's store.
  Each store covers its whole buffer, so a buffer read back after the stores is the last store's payload.
-/
import proofs.«155932_j2018634629251_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A buffer read back whole after a list of stores whose LAST one covered it whole holds that store's payload,
    whatever the earlier stores were. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h inb]

/-- A later point's accumulator: the accumulating payload over what the point before left (`xs0`). -/
theorem acc_later (c : Dev nD) (i : grid0.Coords) (arg3 : Memref sig .tc .vmem S1024x128 .f32) (harg3 : arg3.IsWhole) (arg4 : Memref sig .tc .vmem S2048x128 .i32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (x0 : Vec F S1024x128 .f32) (x1 : Vec F S2048x128 .i32) (x2 : Vec F S2048x32 .f32) (x3 : Vec F S2048x32 .f32) (x4 : Vec F S1x2048 .f32) (xs0 : Vec F S1024x2048 .f32) :
    sout0_B_0 c i arg3 harg3 arg4 harg4 arg5 harg5 arg6 harg6 arg7 harg7 arg8 harg8 arg9 harg9 hc0 x0 x1 x2 x3 x4 xs0 = k0_pay3 i x2 x3 x1 x0 xs0 := by
  unfold sout0_B_0
  rw [View.read_writes_eq_canon _ _ _ (scover0_B_0 c i arg3 harg3 arg4 harg4 arg5 harg5 arg6 harg6 arg7 harg7 arg8 harg8 arg9 harg9 hc0 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg9.read_unread,
    View.ld_unit_zero (S := S2048x32) hz, View.ld_unit_zero (S := S2048x128) hz, View.ld_unit_zero (S := S1024x128) hz,
    View.ld_unit_zero (S := S1024x2048) hz]

/-- A later point's output block: the output payload of that new accumulator and the bias row. -/
theorem out_later (c : Dev nD) (i : grid0.Coords) (arg3 : Memref sig .tc .vmem S1024x128 .f32) (harg3 : arg3.IsWhole) (arg4 : Memref sig .tc .vmem S2048x128 .i32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (x0 : Vec F S1024x128 .f32) (x1 : Vec F S2048x128 .i32) (x2 : Vec F S2048x32 .f32) (x3 : Vec F S2048x32 .f32) (x4 : Vec F S1x2048 .f32) (xs0 : Vec F S1024x2048 .f32) :
    out0_B_5 c i arg3 harg3 arg4 harg4 arg5 harg5 arg6 harg6 arg7 harg7 arg8 harg8 arg9 harg9 hc0 x0 x1 x2 x3 x4 xs0 = k0_pay1 (k0_pay3 i x2 x3 x1 x0 xs0) x4 := by
  unfold out0_B_5
  rw [View.read_writes_eq_canon _ _ _ (cover0_B_5 c i arg3 harg3 arg4 harg4 arg5 harg5 arg6 harg6 arg7 harg7 arg8 harg8 arg9 harg9 hc0 x0 x1 x2 x3 x4 xs0)]
  unfold kernelRun0_B
  dsimp only
  sl_unfold_words
  rw [View.canon_unit_zero hz, View.readCov_unit_zero (S := S1024x2048) _ hz]
  simp only [View.readAt_eq_ld, harg3.read_unread, harg4.read_unread, harg5.read_unread, harg6.read_unread, harg7.read_unread, harg9.read_unread,
    View.ld_unit_zero (S := S2048x32) hz, View.ld_unit_zero (S := S2048x128) hz, View.ld_unit_zero (S := S1024x128) hz,
    View.ld_unit_zero (S := S1024x2048) hz, View.ld_unit_zero (S := S1x2048) hz]

/-- A first point's accumulator: the accumulating payload over the zero block it has just stored. -/
theorem acc_first (c : Dev nD) (i : grid0.Coords) (arg3 : Memref sig .tc .vmem S1024x128 .f32) (harg3 : arg3.IsWhole) (arg4 : Memref sig .tc .vmem S2048x128 .i32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : cond0_0 i) (x0 : Vec F S1024x128 .f32) (x1 : Vec F S2048x128 .i32) (x2 : Vec F S2048x32 .f32) (x3 : Vec F S2048x32 .f32) (x4 : Vec F S1x2048 .f32) :
    sout0_A_0 c i arg3 harg3 arg4 harg4 arg5 harg5 arg6 harg6 arg7 harg7 arg8 harg8 arg9 harg9 hc0 x0 x1 x2 x3 x4 = k0_pay3 i x2 x3 x1 x0 k0_pay2 := by
  unfold sout0_A_0
  rw [View.read_writes_eq_canon _ _ _ (scover0_A_0 c i arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread,
    View.ld_unit_zero (S := S2048x32) hz, View.ld_unit_zero (S := S2048x128) hz, View.ld_unit_zero (S := S1024x128) hz]

/-- A first point's output block: the output payload of that accumulator and the bias row. -/
theorem out_first (c : Dev nD) (i : grid0.Coords) (arg3 : Memref sig .tc .vmem S1024x128 .f32) (harg3 : arg3.IsWhole) (arg4 : Memref sig .tc .vmem S2048x128 .i32) (harg4 : arg4.IsWhole) (arg5 : Memref sig .tc .vmem S2048x32 .f32) (harg5 : arg5.IsWhole) (arg6 : Memref sig .tc .vmem S2048x32 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hc0 : cond0_0 i) (x0 : Vec F S1024x128 .f32) (x1 : Vec F S2048x128 .i32) (x2 : Vec F S2048x32 .f32) (x3 : Vec F S2048x32 .f32) (x4 : Vec F S1x2048 .f32) :
    out0_A_5 c i arg3 harg3 arg4 harg4 arg5 harg5 arg6 harg6 arg7 harg7 arg8 harg8 arg9 harg9 hc0 x0 x1 x2 x3 x4 = k0_pay1 (k0_pay3 i x2 x3 x1 x0 k0_pay2) x4 := by
  unfold out0_A_5
  rw [View.read_writes_eq_canon _ _ _ (cover0_A_5 c i arg3 harg3 arg4 harg4 arg5 harg5 arg6 harg6 arg7 harg7 arg8 harg8 arg9 harg9 hc0 x0 x1 x2 x3 x4)]
  unfold kernelRun0_A
  dsimp only
  sl_unfold_words
  rw [View.canon_unit_zero hz, View.readCov_unit_zero (S := S1024x2048) _ hz, readCov_cons_unit_zero (S := S1024x2048) _ hz]
  simp only [View.readAt_eq_ld, harg3.read_unread, harg4.read_unread, harg5.read_unread, harg6.read_unread, harg7.read_unread,
    View.ld_unit_zero (S := S2048x32) hz, View.ld_unit_zero (S := S2048x128) hz, View.ld_unit_zero (S := S1024x128) hz,
    View.ld_unit_zero (S := S1x2048) hz]

end Cert.KernelIdeal.CaseValue

end
-- ==== Proof.Dequant.lean ====
/-
  A linear layer with group-quantized weights, as one function over the extended reals.

  `A` is a `[2048, 4096]` array of activations, `q` a `[4096, 4096]` array of integer weights (one row per output
  feature), `sc` and `zp` are `[4096, 32]` arrays of scales and zero points — one per output feature and per GROUP of
  128 consecutive input features — and `bias` has one entry per output feature. The dequantized weight is
      `W[n, k] = (q[n, k] − zp[n, k / 128]) · sc[n, k / 128]`
  and the layer's entry `(p, n)` is `(∑ k < 4096, A[p, k] · W[n, k]) + bias[n]`.

  The sum over the 4096 input features is also the sum, group after group, of the 32 sums over a group's 128
  features: addition of extended reals is commutative and associative, so regrouping a finite sum changes nothing
  (no entry has to be finite). Within group `g` every feature `128·g + j` has the same scale and zero point, those of
  group `g`.
-/
import Idealize.ShloMosaic.PureOps.Ideal
import Idealize.ShloMosaic.Lib.ValueIdx
import Mathlib.Algebra.BigOperators.Fin
import Mathlib.Data.EReal.Basic

noncomputable section

namespace Cert.Dequant

open Idealize.ShloMosaic Idealize.ShloMosaic.ValueIdx
open scoped BigOperators

/-- The group of 128 consecutive input features that feature `k` belongs to. -/
def group (k : Fin 4096) : Fin 32 := ⟨k.val / 128, by have := k.isLt; omega⟩

/-- Feature `j` of group `g`. -/
def feature (g : Fin 32) (j : Fin 128) : Fin 4096 := ⟨128 * g.val + j.val, by have := g.isLt; have := j.isLt; omega⟩

theorem group_feature (g : Fin 32) (j : Fin 128) : group (feature g j) = g :=
  Fin.ext (by show (128 * g.val + j.val) / 128 = g.val; have := j.isLt; omega)

/-- The dequantized weight of output feature `n` at input feature `k`. -/
def weight (q : (⟨2, ![4096, 4096]⟩ : Shape).Idx → BitVec 32) (sc zp : (⟨2, ![4096, 32]⟩ : Shape).Idx → EReal)
    (n k : Fin 4096) : EReal :=
  ((((q (ix2 n k)).toInt : ℝ) : EReal) - zp (ix2 n (group k))) * sc (ix2 n (group k))

/-- Entry `(p, n)` of the layer. -/
def layerAt (A : (⟨2, ![2048, 4096]⟩ : Shape).Idx → EReal) (q : (⟨2, ![4096, 4096]⟩ : Shape).Idx → BitVec 32)
    (sc zp : (⟨2, ![4096, 32]⟩ : Shape).Idx → EReal) (bias : (⟨1, ![4096]⟩ : Shape).Idx → EReal)
    (p : Fin 2048) (n : Fin 4096) : EReal :=
  (∑ k : Fin 4096, A (ix2 p k) * weight q sc zp n k) + bias (ix1 n)

/-- The whole `[2048, 4096]` array the layer computes. -/
def layer (A : (⟨2, ![2048, 4096]⟩ : Shape).Idx → EReal) (q : (⟨2, ![4096, 4096]⟩ : Shape).Idx → BitVec 32)
    (sc zp : (⟨2, ![4096, 32]⟩ : Shape).Idx → EReal) (bias : (⟨1, ![4096]⟩ : Shape).Idx → EReal) :
    (⟨2, ![2048, 4096]⟩ : Shape).Idx → EReal :=
  fun i => layerAt A q sc zp bias (i 0) (i 1)

theorem layer_apply (A : (⟨2, ![2048, 4096]⟩ : Shape).Idx → EReal) (q : (⟨2, ![4096, 4096]⟩ : Shape).Idx → BitVec 32)
    (sc zp : (⟨2, ![4096, 32]⟩ : Shape).Idx → EReal) (bias : (⟨1, ![4096]⟩ : Shape).Idx → EReal)
    (p : Fin 2048) (n : Fin 4096) : layer A q sc zp bias (ix2 p n) = layerAt A q sc zp bias p n := rfl

/-- A sum over the 4096 input features is the sum over the 32 groups of the sums over a group's 128 features. -/
theorem sum_by_groups {M : Type*} [AddCommMonoid M] (f : Fin 4096 → M) :
    ∑ k : Fin 4096, f k = ∑ g : Fin 32, ∑ j : Fin 128, f (feature g j) := by
  rw [← Fintype.sum_prod_type']
  exact (Fintype.sum_equiv (finProdFinEquiv (m := 32) (n := 128)) _ _ fun x => by
    refine congrArg f (Fin.ext ?_)
    show 128 * x.1.val + x.2.val = x.2.val + 128 * x.1.val
    omega).symm

/-- The part of entry `(p, n)` that group `g` contributes: the 128 products of the group's features, all dequantized
    with the group's one scale and one zero point. -/
def groupTerm (A : (⟨2, ![2048, 4096]⟩ : Shape).Idx → EReal) (q : (⟨2, ![4096, 4096]⟩ : Shape).Idx → BitVec 32)
    (sc zp : (⟨2, ![4096, 32]⟩ : Shape).Idx → EReal) (p : Fin 2048) (n : Fin 4096) (g : Fin 32) : EReal :=
  ∑ j : Fin 128, A (ix2 p (feature g j))
    * (((((q (ix2 n (feature g j))).toInt : ℝ) : EReal) - zp (ix2 n g)) * sc (ix2 n g))

/-- Entry `(p, n)` with the input features taken group after group. -/
theorem layerAt_by_groups (A : (⟨2, ![2048, 4096]⟩ : Shape).Idx → EReal) (q : (⟨2, ![4096, 4096]⟩ : Shape).Idx → BitVec 32)
    (sc zp : (⟨2, ![4096, 32]⟩ : Shape).Idx → EReal) (bias : (⟨1, ![4096]⟩ : Shape).Idx → EReal)
    (p : Fin 2048) (n : Fin 4096) :
    layerAt A q sc zp bias p n = (∑ g : Fin 32, groupTerm A q sc zp p n g) + bias (ix1 n) := by
  unfold layerAt groupTerm
  rw [sum_by_groups]
  refine congrArg (· + bias (ix1 n)) (Finset.sum_congr rfl fun g _ => Finset.sum_congr rfl fun j _ => ?_)
  unfold weight
  rw [group_feature]

/-! ## Tiles -/

/-- Row `r` of row tile `I` (two tiles of 1024 rows). -/
def row (I : Fin 2) (r : Fin 1024) : Fin 2048 := ⟨1024 * I.val + r.val, by have := I.isLt; have := r.isLt; omega⟩

/-- Column `s` of column tile `J` (two tiles of 2048 columns). -/
def col (J : Fin 2) (s : Fin 2048) : Fin 4096 := ⟨2048 * J.val + s.val, by have := J.isLt; have := s.isLt; omega⟩

/-- Every row is a row of one of the two row tiles. -/
theorem row_div_mod (p : Fin 2048) :
    row ⟨p.val / 1024, by have := p.isLt; omega⟩ ⟨p.val % 1024, Nat.mod_lt _ (by decide)⟩ = p :=
  Fin.ext (by show 1024 * (p.val / 1024) + p.val % 1024 = p.val; omega)

/-- Every column is a column of one of the two column tiles. -/
theorem col_div_mod (n : Fin 4096) :
    col ⟨n.val / 2048, by have := n.isLt; omega⟩ ⟨n.val % 2048, Nat.mod_lt _ (by decide)⟩ = n :=
  Fin.ext (by show 2048 * (n.val / 2048) + n.val % 2048 = n.val; omega)

end Cert.Dequant

end
-- ==== Proof.Blocks.lean ====
/-
  Where each window's block sits at a grid point.

  The grid has 2 × 2 × 32 points, numbered row-major: point `t` has row tile `t / 64`, column tile `(t / 32) % 2` and
  reduction coordinate (quantization group) `t % 32`. At point `t`
  * the activations' block is rows `1024·(t / 64) + r`, features `128·(t % 32) + j` of `A`;
  * the integer weights' block is output features `2048·((t / 32) % 2) + s`, input features `128·(t % 32) + j` of `q`;
  * the scales' and zero points' blocks are output features `2048·((t / 32) % 2) + s`, all 32 groups;
  * the bias block is columns `2048·((t / 32) % 2) + s` of the bias viewed as one row — a `[4096]` vector the host
    program reshapes to `[1, 4096]` before the kernel runs, so entry `(0, n)` of that row is entry `n` of the vector.
  A block's coordinate in its array is always (block index) × (block extent) + (coordinate inside the block); the
  block indices are decided once over the 128 points.
-/
import proofs.«155932_j2018634629251_1_alg».proof.Proof.Gen.KernelIdeal.Frame
import proofs.«155932_j2018634629251_1_alg».proof.Proof.Dequant
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Dequant

variable {F : FTy → Type} [FloatOps F]
variable (m : (ℓ : Loc nD τ sig) → Buf (Elt F) ℓ)

/-! ## A point's tiles and group, as functions of its number -/

/-- The row tile of point number `n`. -/
def rowTile (n : ℕ) : Fin 2 := ⟨n / 64 % 2, Nat.mod_lt _ (by decide)⟩
/-- The column tile of point number `n`. -/
def colTile (n : ℕ) : Fin 2 := ⟨n / 32 % 2, Nat.mod_lt _ (by decide)⟩
/-- The quantization group of point number `n`. -/
def grp (n : ℕ) : Fin 32 := ⟨n % 32, Nat.mod_lt _ (by decide)⟩

/-- The block indices of the six windows and the reduction coordinate, at every point. -/
theorem index_facts : ∀ t : Fin cfg0.N,
    win0_0.index t (0 : Fin 2) = t.val / 64 % 2 ∧ win0_0.index t (1 : Fin 2) = t.val % 32
    ∧ win0_1.index t (0 : Fin 2) = t.val / 32 % 2 ∧ win0_1.index t (1 : Fin 2) = t.val % 32
    ∧ win0_2.index t (0 : Fin 2) = t.val / 32 % 2 ∧ win0_2.index t (1 : Fin 2) = 0
    ∧ win0_3.index t (0 : Fin 2) = t.val / 32 % 2 ∧ win0_3.index t (1 : Fin 2) = 0
    ∧ win0_4.index t (0 : Fin 2) = 0 ∧ win0_4.index t (1 : Fin 2) = t.val / 32 % 2
    ∧ win0_5.index t (0 : Fin 2) = t.val / 64 % 2 ∧ win0_5.index t (1 : Fin 2) = t.val / 32 % 2
    ∧ ((grid0.coords t) 2).val = t.val % 32 :=
  (by decide +kernel : ∀ t : Fin grid0.N, _)

/-- The reduction coordinate of point `t` is its group. -/
theorem coord_grp (t : Fin cfg0.N) : ((grid0.coords t) 2).val = (grp t.val).val := (index_facts t).2.2.2.2.2.2.2.2.2.2.2.2

/-! ## The blocks read in their arrays -/

/-- The activations' block at point `t`, entry `(r, j)`. -/
theorem act_apply (c : Dev nD) (t : Fin cfg0.N) (r : Fin 1024) (j : Fin 128) :
    (iblk m c 0 t : Vec F S1024x128 .f32) (ix2 r j)
      = m ((c : Thread nD τ).loc main_arg0) (ix2 (row (rowTile t.val) r) (feature (grp t.val) j)) := by
  unfold iblk
  rw [View.read_apply]
  show V m c main_arg0 _ = _
  rw [V_main_arg0]
  refine congrArg (m ((c : Thread nD τ).loc main_arg0)) (funext fun a => Fin.ext ?_)
  obtain ⟨e0, e1, -⟩ := index_facts t
  match a with
  | ⟨0, _⟩ => show win0_0.index t (0 : Fin 2) * 1024 + 1 * r.val = 1024 * (t.val / 64 % 2) + r.val; rw [e0]; omega
  | ⟨1, _⟩ => show win0_0.index t (1 : Fin 2) * 128 + 1 * j.val = 128 * (t.val % 32) + j.val; rw [e1]; omega

/-- The integer weights' block at point `t`, entry `(s, j)`. -/
theorem qw_apply (c : Dev nD) (t : Fin cfg0.N) (s : Fin 2048) (j : Fin 128) :
    (iblk m c 1 t : Vec F S2048x128 .i32) (ix2 s j)
      = m ((c : Thread nD τ).loc main_arg1) (ix2 (col (colTile t.val) s) (feature (grp t.val) j)) := by
  unfold iblk
  rw [View.read_apply]
  show V m c main_arg1 _ = _
  rw [V_main_arg1]
  refine congrArg (m ((c : Thread nD τ).loc main_arg1)) (funext fun a => Fin.ext ?_)
  obtain ⟨-, -, e0, e1, -⟩ := index_facts t
  match a with
  | ⟨0, _⟩ => show win0_1.index t (0 : Fin 2) * 2048 + 1 * s.val = 2048 * (t.val / 32 % 2) + s.val; rw [e0]; omega
  | ⟨1, _⟩ => show win0_1.index t (1 : Fin 2) * 128 + 1 * j.val = 128 * (t.val % 32) + j.val; rw [e1]; omega

/-- The scales' block at point `t`, entry `(s, g)`. -/
theorem sc_apply (c : Dev nD) (t : Fin cfg0.N) (s : Fin 2048) (g : Fin 32) :
    (iblk m c 2 t : Vec F S2048x32 .f32) (ix2 s g)
      = m ((c : Thread nD τ).loc main_arg2) (ix2 (col (colTile t.val) s) g) := by
  unfold iblk
  rw [View.read_apply]
  show V m c main_arg2 _ = _
  rw [V_main_arg2]
  refine congrArg (m ((c : Thread nD τ).loc main_arg2)) (funext fun a => Fin.ext ?_)
  obtain ⟨-, -, -, -, e0, e1, -⟩ := index_facts t
  match a with
  | ⟨0, _⟩ => show win0_2.index t (0 : Fin 2) * 2048 + 1 * s.val = 2048 * (t.val / 32 % 2) + s.val; rw [e0]; omega
  | ⟨1, _⟩ => show win0_2.index t (1 : Fin 2) * 32 + 1 * g.val = g.val; rw [e1]; omega

/-- The zero points' block at point `t`, entry `(s, g)`. -/
theorem zp_apply (c : Dev nD) (t : Fin cfg0.N) (s : Fin 2048) (g : Fin 32) :
    (iblk m c 3 t : Vec F S2048x32 .f32) (ix2 s g)
      = m ((c : Thread nD τ).loc main_arg3) (ix2 (col (colTile t.val) s) g) := by
  unfold iblk
  rw [View.read_apply]
  show V m c main_arg3 _ = _
  rw [V_main_arg3]
  refine congrArg (m ((c : Thread nD τ).loc main_arg3)) (funext fun a => Fin.ext ?_)
  obtain ⟨-, -, -, -, -, -, e0, e1, -⟩ := index_facts t
  match a with
  | ⟨0, _⟩ => show win0_3.index t (0 : Fin 2) * 2048 + 1 * s.val = 2048 * (t.val / 32 % 2) + s.val; rw [e0]; omega
  | ⟨1, _⟩ => show win0_3.index t (1 : Fin 2) * 32 + 1 * g.val = g.val; rw [e1]; omega

/-- The bias row as the kernel finds it: the host program's reshape of the bias vector. -/
theorem bias_row (c : Dev nD) :
    (V m c main_v0 : S1x4096.Idx → Elt F .f32)
      = shapeCast S1x4096 (m ((c : Thread nD τ).loc main_arg4)) shapeCasts_S4096_S1x4096 := by
  dsimp only [Gen.V, Gen.hostOps0]
  after_results
  rfl

/-- The bias block at point `t`, entry `(0, s)`. -/
theorem bias_apply (c : Dev nD) (t : Fin cfg0.N) (s : Fin 2048) :
    (iblk m c 4 t : Vec F S1x2048 .f32) (ix2 (0 : Fin 1) s)
      = m ((c : Thread nD τ).loc main_arg4) (ix1 (col (colTile t.val) s)) := by
  unfold iblk
  rw [View.read_apply]
  show V m c main_v0 _ = _
  rw [bias_row]
  have hidx : ((cfg0.win 4).blk t).view.emb (ix2 (0 : Fin 1) s) = ix2 (0 : Fin 1) (col (colTile t.val) s) := by
    funext a
    apply Fin.ext
    obtain ⟨-, -, -, -, -, -, -, -, e0, e1, -⟩ := index_facts t
    match a with
    | ⟨0, _⟩ => show win0_4.index t (0 : Fin 2) * 1 + 1 * 0 = 0; rw [e0]
    | ⟨1, _⟩ => show win0_4.index t (1 : Fin 2) * 2048 + 1 * s.val = 2048 * (t.val / 32 % 2) + s.val; rw [e1]; omega
  rw [hidx]
  exact shapeCast_a_1a_apply _ shapeCasts_S4096_S1x4096 (0 : Fin 1) (col (colTile t.val) s)

/-- Entry `(r, s)` of the output block of point `t` sits at row `1024·(t / 64) + r`, column `2048·((t / 32) % 2) + s`. -/
theorem out_emb (t : Fin cfg0.N) (r : Fin 1024) (s : Fin 2048) :
    ((cfg0.win 5).blk t).view.emb (ix2 r s) = ix2 (row (rowTile t.val) r) (col (colTile t.val) s) := by
  funext a
  apply Fin.ext
  obtain ⟨-, -, -, -, -, -, -, -, -, -, e0, e1, -⟩ := index_facts t
  match a with
  | ⟨0, _⟩ => show win0_5.index t (0 : Fin 2) * 1024 + 1 * r.val = 1024 * (t.val / 64 % 2) + r.val; rw [e0]; omega
  | ⟨1, _⟩ => show win0_5.index t (1 : Fin 2) * 2048 + 1 * s.val = 2048 * (t.val / 32 % 2) + s.val; rw [e1]; omega

end Cert.KernelIdeal.Blocks

end
-- ==== Proof.KernelValue.lean ====
/-
  What the kernel's result array holds after the run: the quantized linear layer of the argument arrays.

  The 128 grid points come in four runs of 32 consecutive points, one run per output tile (row tile × column tile);
  within a run the reduction coordinate goes through the 32 quantization groups in order. The accumulator is reset at a
  run's first point and every point adds its own group's term, so after the run's point `j` it holds
  `0 + ∑ s ≤ j, (term of group s)` — a fold, unrolled without enumerating points. The output block, written back only
  after a run's LAST point, is that accumulator plus the bias row: entry `(r, s)` of the tile is
  `(∑ g < 32, term g) + bias`, which is the layer's entry at the tile's row and column, the 4096 input features taken
  group after group. The four tiles cover the `[2048, 4096]` result, each index lying in the tile of its quotients.
-/
import proofs.«155932_j2018634629251_1_alg».proof.Proof.Gen.KernelIdeal.Value
import proofs.«155932_j2018634629251_1_alg».proof.Proof.BodyValue
import proofs.«155932_j2018634629251_1_alg».proof.Proof.CaseValue
import proofs.«155932_j2018634629251_1_alg».proof.Proof.Blocks
import proofs.«155932_j2018634629251_1_alg».proof.Proof.Dequant

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Dequant Cert.KernelIdeal.Blocks Cert.KernelIdeal.BodyValue Cert.KernelIdeal.CaseValue
open scoped BigOperators

variable (m : (ℓ : Loc nD τ sig) → Buf (Elt Ideal) ℓ) (ρ : Dev nD → PrngReg)

/-- The layer of the argument arrays as core `c` holds them at launch. -/
def result (c : Dev nD) : (⟨2, ![2048, 4096]⟩ : Shape).Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

/-! ## One point's addend -/

/-- What point number `n` adds to entry `(r, s)` of the accumulator: its group's term at its tile's row and column. -/
def addendAt (c : Dev nD) (n : ℕ) (r : Fin 1024) (s : Fin 2048) : EReal :=
  groupTerm (m ((c : Thread nD τ).loc main_arg0)) (m ((c : Thread nD τ).loc main_arg1)) (m ((c : Thread nD τ).loc main_arg2))
    (m ((c : Thread nD τ).loc main_arg3)) (row (rowTile n) r) (col (colTile n) s) (grp n)

/-- The same as a function of the block index. -/
def addend (c : Dev nD) (n : ℕ) (y : S1024x2048.Idx) : EReal := addendAt m c n (y 0) (y 1)

/-- The accumulating payload at point `t`'s blocks adds point `t`'s addend to what the accumulator held. -/
theorem step_apply (c : Dev nD) (t : Fin cfg0.N) (acc : Vec Ideal S1024x2048 .f32) (r : Fin 1024) (s : Fin 2048) :
    k0_pay3 (F := Ideal) (grid0.coords t) (iblk m c 2 t) (iblk m c 3 t) (iblk m c 1 t) (iblk m c 0 t) acc (ix2 r s)
      = acc (ix2 r s) + addend m c t.val (ix2 r s) := by
  refine (accumulate_apply (grid0.coords t) (grp t.val) (coord_grp t) (iblk m c 2 t) (iblk m c 3 t) (iblk m c 1 t)
    (iblk m c 0 t) acc r s).trans ?_
  refine congrArg (acc (ix2 r s) + ·) ?_
  show _ = groupTerm _ _ _ _ (row (rowTile t.val) r) (col (colTile t.val) s) (grp t.val)
  unfold groupTerm
  refine Finset.sum_congr rfl fun j _ => ?_
  rw [act_apply m c t r j, qw_apply m c t s j, zp_apply m c t s (grp t.val), sc_apply m c t s (grp t.val)]

/-! ## The accumulator after each point: a fold -/

/-- After point `t` the accumulator holds the addends of its run's points up to `t`, summed from zero. -/
theorem acc_apply (c : Dev nD) (t : Fin cfg0.N) (y : S1024x2048.Idx) :
    (outsAt0 m c t.val t.isLt).2 y
      = 0 + ∑ s ∈ Finset.range (t.val % 32 + 1), addend m c (32 * (t.val / 32) + s) y := by
  have hN : cfg0.N = 128 := N_0
  rw [Cert.KernelIdeal.Value.soutsAt0_0_eq m c t]
  refine Pipeline.accAt_add_apply _ _ (fun _ => (0 : EReal)) (addend m c) (32 * (t.val / 32)) 31 ?_ ?_
    (t.val % 32) (by omega) _ y
  · intro h i
    obtain ⟨r, s, rfl⟩ : ∃ (r : Fin 1024) (s : Fin 2048), i = ix2 r s := ⟨i 0, i 1, eq_ix2 i⟩
    have h0 : 32 * (t.val / 32) % 32 = 0 := Nat.mul_mod_right _ _
    show Cert.KernelIdeal.Value.scAt0_0 m c (32 * (t.val / 32)) h _ (ix2 r s) = _
    unfold Cert.KernelIdeal.Value.scAt0_0
    rw [dif_pos h0, acc_first, step_apply m c ⟨32 * (t.val / 32), h⟩ _ r s, reset_apply]
  · intro n h acc i hlo hhi
    obtain ⟨r, s, rfl⟩ : ∃ (r : Fin 1024) (s : Fin 2048), i = ix2 r s := ⟨i 0, i 1, eq_ix2 i⟩
    have h0 : ¬n % 32 = 0 := by omega
    show Cert.KernelIdeal.Value.scAt0_0 m c n h acc (ix2 r s) = _
    unfold Cert.KernelIdeal.Value.scAt0_0
    rw [dif_neg h0, acc_later, step_apply m c ⟨n, h⟩ acc r s]

/-! ## The output block after each point -/

/-- After any point the output's staging block is the output payload of the accumulator's contents and the bias block. -/
theorem out_eq (c : Dev nD) (t : Fin cfg0.N) :
    (outsAt0 m c t.val t.isLt).1 = k0_pay1 ((outsAt0 m c t.val t.isLt).2) (iblk m c 4 t) := by
  by_cases h0 : t.val % 32 = 0
  · rw [outsAt0_A m c t h0]
    dsimp only
    rw [out_first, acc_first]
  · rw [outsAt0_B m c t h0]
    dsimp only
    rw [out_later, acc_later]

/-- The block a flushing point writes back is that point's tile of the layer. -/
theorem flushed_eq (c : Dev nD) (t : Fin cfg0.N) (hf : (cfg0.win 5).flush t = true) :
    (dats m 0 c).flushed 5 t = ((cfg0.win 5).blk t).view.read (Elt Ideal) (result m c) := by
  have h31 : t.val % 32 = 31 := (flush0_5 t).mp hf
  have hN : t.val < 128 := lt_of_lt_of_eq t.isLt N_0
  rw [Cert.KernelIdeal.Value.flushed5, out_eq]
  funext y
  obtain ⟨r, s, rfl⟩ : ∃ (r : Fin 1024) (s : Fin 2048), y = ix2 r s := ⟨y 0, y 1, eq_ix2 y⟩
  rw [View.read_apply, out_emb]
  show k0_pay1 (F := Ideal) ((outsAt0 m c t.val t.isLt).2) (iblk m c 4 t) (ix2 r s)
    = layerAt _ _ _ _ _ (row (rowTile t.val) r) (col (colTile t.val) s)
  rw [layerAt_by_groups, output_apply, acc_apply, bias_apply, zero_add, h31]
  refine congrArg (· + m ((c : Thread nD τ).loc main_arg4) (ix1 (col (colTile t.val) s))) ?_
  rw [Finset.sum_range]
  refine Finset.sum_congr rfl fun g _ => ?_
  have hg := g.isLt
  show groupTerm _ _ _ _ (row (rowTile (32 * (t.val / 32) + g.val)) r) (col (colTile (32 * (t.val / 32) + g.val)) s)
    (grp (32 * (t.val / 32) + g.val)) = _
  have e1 : rowTile (32 * (t.val / 32) + g.val) = rowTile t.val := Fin.ext (by
    show (32 * (t.val / 32) + g.val) / 64 % 2 = t.val / 64 % 2; omega)
  have e2 : colTile (32 * (t.val / 32) + g.val) = colTile t.val := Fin.ext (by
    show (32 * (t.val / 32) + g.val) / 32 % 2 = t.val / 32 % 2; omega)
  have e3 : grp (32 * (t.val / 32) + g.val) = g := Fin.ext (by
    show (32 * (t.val / 32) + g.val) % 32 = g.val; omega)
  rw [e1, e2, e3]

/-! ## The four tiles cover the result -/

/-- An index of the result lies in point `t`'s output block iff each coordinate lies in the block's range. -/
theorem mem_blk (t : Fin cfg0.N) (i : S2048x4096.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v1).slice (win0_5.rect t)).set ↔ _
  rw [View.set_slice_whole, Rect.mem_set_unit]
  exact Iff.rfl

/-- Every index lies in the block of the last point of its tile's run. -/
theorem cover (i : S2048x4096.Idx) :
    ∃ t : Fin cfg0.N, (cfg0.win 5).flush t = true ∧ i ∈ ((cfg0.win 5).blk t).view.set := by
  have h0 : (i 0).val < 2048 := (i 0).isLt
  have h1 : (i 1).val < 4096 := (i 1).isLt
  have hb : 64 * ((i 0).val / 1024) + 32 * ((i 1).val / 2048) + 31 < cfg0.N := by
    rw [show cfg0.N = 128 from N_0]; omega
  refine ⟨⟨64 * ((i 0).val / 1024) + 32 * ((i 1).val / 2048) + 31, hb⟩, (flush0_5 _).mpr (by show (64 * ((i 0).val / 1024) + 32 * ((i 1).val / 2048) + 31) % 32 = 31; omega), ?_⟩
  rw [mem_blk]
  obtain ⟨-, -, -, -, -, -, -, -, -, -, e0, e1, -⟩ := index_facts ⟨64 * ((i 0).val / 1024) + 32 * ((i 1).val / 2048) + 31, hb⟩
  intro a
  match a with
  | ⟨0, _⟩ =>
    show win0_5.index _ (0 : Fin 2) * 1024 ≤ (i 0).val ∧ (i 0).val < win0_5.index _ (0 : Fin 2) * 1024 + 1024
    rw [e0]
    show (64 * ((i 0).val / 1024) + 32 * ((i 1).val / 2048) + 31) / 64 % 2 * 1024 ≤ (i 0).val
      ∧ (i 0).val < (64 * ((i 0).val / 1024) + 32 * ((i 1).val / 2048) + 31) / 64 % 2 * 1024 + 1024
    omega
  | ⟨1, _⟩ =>
    show win0_5.index _ (1 : Fin 2) * 2048 ≤ (i 1).val ∧ (i 1).val < win0_5.index _ (1 : Fin 2) * 2048 + 2048
    rw [e1]
    show (64 * ((i 0).val / 1024) + 32 * ((i 1).val / 2048) + 31) / 32 % 2 * 2048 ≤ (i 1).val
      ∧ (i 1).val < (64 * ((i 0).val / 1024) + 32 * ((i 1).val / 2048) + 31) / 32 % 2 * 2048 + 2048
    omega

/-! ## The result array, and the run -/

/-- The result array ends holding the layer of the argument arrays. -/
theorem final (c : Dev nD) : (dats m 0 c).arrAt 5 cfg0.N = result m c :=
  (dats m 0 c).arrAt_eq_of_cover 5 (result m c) (flushed_eq m c) cover

/-- Every weakly fair execution of the idealized kernel terminates with the result array at the layer of the
    arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KernelValue

end
-- ==== Proof.ReferenceValue.lean ====
/-
  The reference program's result, entry by entry, is the quantized linear layer of its arguments.

  The reference repeats every scale and zero point 128 times along the input features — a broadcast
  `[4096, 32] → [4096, 32, 128]` followed by a reshape to `[4096, 4096]`, which reads entry `(n, k)` at the broadcast's
  `(n, k / 128, k % 128)`, that is at the operand's `(n, k / 128)` —, converts the integer weights, subtracts the zero
  points, multiplies by the scales, contracts the activations with the result along both second axes and adds the bias
  broadcast down the rows. Each step read at an index gives the layer's entry `(p, n)`.
-/
import proofs.«155932_j2018634629251_1_alg».proof.Proof.Gen.ReferenceIdeal.Read
import proofs.«155932_j2018634629251_1_alg».proof.Proof.Dequant

noncomputable section

namespace Cert.ReferenceIdeal.RefValue

open Cert.ReferenceIdeal Cert.ReferenceIdeal.Read Idealize.ShloMosaic Idealize.ShloMosaic.ValueIdx Cert.Dequant
open scoped BigOperators

/-- The repeated scale read at `(n, k)` is the scale of output feature `n` and of feature `k`'s group. -/
theorem repeat_sc_idx (n k : Fin 4096) : idx_main_v0 (idx_main_v1 (ix2 n k)) = ix2 n (group k) := by
  funext a
  apply Fin.ext
  have hn := n.isLt
  have hk := k.isLt
  match a with
  | ⟨0, _⟩ => show (n.val * 4096 + k.val) / 4096 = n.val; omega
  | ⟨1, _⟩ => show (n.val * 4096 + k.val) / 128 % 32 = k.val / 128; omega

/-- The same for the repeated zero point. -/
theorem repeat_zp_idx (n k : Fin 4096) : idx_main_v2 (idx_main_v3 (ix2 n k)) = ix2 n (group k) := by
  funext a
  apply Fin.ext
  have hn := n.isLt
  have hk := k.isLt
  match a with
  | ⟨0, _⟩ => show (n.val * 4096 + k.val) / 4096 = n.val; omega
  | ⟨1, _⟩ => show (n.val * 4096 + k.val) / 128 % 32 = k.val / 128; omega

/-- The reference's dequantized weight array, read at `(n, k)`. -/
theorem weight_eq (x1 : (⟨S4096x4096, .i32⟩ : BufTy).Contents (Elt Ideal)) (x2 x3 : (⟨S4096x32, .f32⟩ : BufTy).Contents (Elt Ideal))
    (n k : Fin 4096) : val_main_v6 (F := Ideal) x1 x2 x3 (ix2 n k) = weight x1 x2 x3 n k := by
  rw [val_main_v6_apply, val_main_v5_apply, val_main_v4_apply, val_main_v3_apply, val_main_v2_apply, val_main_v1_apply,
    val_main_v0_apply, repeat_sc_idx, repeat_zp_idx]
  rfl

/-- The reference's result is the layer of its five arguments. -/
theorem result_eq (x0 : (⟨S2048x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S4096, .f32⟩ : BufTy).Contents (Elt Ideal)) :
    val_main_v10 (F := Ideal) x0 x1 x2 x3 x4 = layer x0 x1 x2 x3 x4 := by
  funext i
  obtain ⟨p, n, rfl⟩ : ∃ (p : Fin 2048) (n : Fin 4096), i = ix2 p n := ⟨i 0, i 1, eq_ix2 i⟩
  rw [val_main_v10_apply, val_main_v7_apply, val_main_v9_apply, val_main_v8_apply, layer_apply]
  have hl : ∀ k : Fin 4096, lidx_main_v7 (ix2 p n) k = ix2 p k := fun k => funext fun a => Fin.ext (by
    match a with
    | ⟨0, _⟩ => rfl
    | ⟨1, _⟩ => rfl)
  have hr : ∀ k : Fin 4096, ridx_main_v7 (ix2 p n) k = ix2 n k := fun k => funext fun a => Fin.ext (by
    match a with
    | ⟨0, _⟩ => rfl
    | ⟨1, _⟩ => rfl)
  have hb : idx_main_v8 (idx_main_v9 (ix2 p n)) = ix1 n := funext fun a => Fin.ext (by
    match a with
    | ⟨0, _⟩ => rfl)
  rw [hb]
  show (∑ k : Fin 4096, x0 (lidx_main_v7 (ix2 p n) k) * val_main_v6 (F := Ideal) x1 x2 x3 (ridx_main_v7 (ix2 p n) k)) + x4 (ix1 n) = _
  unfold layerAt
  refine congrArg (· + x4 (ix1 n)) (Finset.sum_congr rfl fun k _ => ?_)
  rw [hl, hr, weight_eq]

end Cert.ReferenceIdeal.RefValue

end
-- ==== Proof.lean ====
/-
  A weight-only quantized linear layer: the kernel against its plain reference, over the extended reals.

  Both programs compute, for activations `A [2048, 4096]`, integer weights `q [4096, 4096]`, per-group scales and zero
  points `[4096, 32]` (one group per 128 consecutive input features) and a bias `[4096]`,
      `out[p, n] = (∑ k < 4096, A[p, k] · (q[n, k] − zero[n, k / 128]) · scale[n, k / 128]) + bias[n]`.
  The reference repeats the scales and zero points along the input features and takes one product of the whole
  arrays. The kernel walks a grid of output tiles and, inside a tile, the 32 groups one after the other: it picks a
  group's scale and zero-point columns out of their blocks by a sum against a one-hot row (a product with 1 keeps a
  term, a product with 0 removes it, on every extended real), dequantizes the group's `[2048, 128]` tile, and adds the
  tile's product with the activations to an accumulator that it zeroes at a tile's first group and writes out, plus the
  bias, after the last. Changing a float's format does nothing to an extended real, a product into a zero accumulator
  is the plain sum of products, and a sum of 4096 terms taken in 32 groups of 128 is the same sum: addition of extended
  reals is commutative and associative. No entry has to be finite, so the precondition is never opened.

  The three frames are the generated runs; the idealization rewrote nothing, so `preserves` is trivial; `algebraic`
  sets the kernel's run (its result array is the layer of the arguments) beside the reference's run (its result term is
  the layer of the arguments) on arguments that agree.
-/
import proofs.«155932_j2018634629251_1_alg».proof.Defs
import proofs.«155932_j2018634629251_1_alg».proof.Proof.Gen.Kernel
import proofs.«155932_j2018634629251_1_alg».proof.Proof.Gen.Kernel.Skeleton
import proofs.«155932_j2018634629251_1_alg».proof.Proof.Gen.Kernel.Launch
import proofs.«155932_j2018634629251_1_alg».proof.Proof.Gen.Kernel.Points
import proofs.«155932_j2018634629251_1_alg».proof.Proof.Gen.Kernel.Frame
import proofs.«155932_j2018634629251_1_alg».proof.Proof.Gen.KernelIdeal
import proofs.«155932_j2018634629251_1_alg».proof.Proof.Gen.KernelIdeal.Skeleton
import proofs.«155932_j2018634629251_1_alg».proof.Proof.Gen.KernelIdeal.Launch
import proofs.«155932_j2018634629251_1_alg».proof.Proof.Gen.KernelIdeal.Points
import proofs.«155932_j2018634629251_1_alg».proof.Proof.Gen.KernelIdeal.Frame
import proofs.«155932_j2018634629251_1_alg».proof.Proof.Gen.ReferenceIdeal
import proofs.«155932_j2018634629251_1_alg».proof.Proof.Gen.Pre_finite_inputs
import proofs.«155932_j2018634629251_1_alg».proof.Proof.Gen.KernelIdeal.Value
import proofs.«155932_j2018634629251_1_alg».proof.Proof.Gen.ReferenceIdeal.Run
import proofs.«155932_j2018634629251_1_alg».proof.Proof.Gen.ReferenceIdeal.Read
import proofs.«155932_j2018634629251_1_alg».proof.Proof.KernelValue
import proofs.«155932_j2018634629251_1_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals the kernel's result array ends at the layer of its arguments and the reference's at the layer
    of its own; the arguments agree, so the two results are equal entry by entry. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq]
  obtain ⟨a0, a1, a2, a3, a4⟩ := hagree c
  rw [a0, a1, a2, a3, a4]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
